-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x2 : Shape := ⟨2, ![262144, 2]⟩
abbrev S2x1024 : Shape := ⟨2, ![2, 1024]⟩
abbrev S1024 : Shape := ⟨1, ![1024]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S256x3 : Shape := ⟨2, ![256, 3]⟩
abbrev S3 : Shape := ⟨1, ![3]⟩
abbrev S_ : Shape := ⟨0, ![]⟩

class Facts : Prop where
  bcast_S_S262144x2 : S_.BroadcastsInDim S262144x2 (![] : Fin 0 → Fin S262144x2.rank)
  reducesTo_S262144x2_S_d0_1 : S262144x2.ReducesTo [0, 1] S_
  h_S_ : 0 < S_.numel
  bcast_S_S2x1024 : S_.BroadcastsInDim S2x1024 (![] : Fin 0 → Fin S2x1024.rank)
  reducesTo_S2x1024_S_d0_1 : S2x1024.ReducesTo [0, 1] S_
  bcast_S_S1024 : S_.BroadcastsInDim S1024 (![] : Fin 0 → Fin S1024.rank)
  reducesTo_S1024_S_d0 : S1024.ReducesTo [0] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x3 : S_.BroadcastsInDim S256x3 (![] : Fin 0 → Fin S256x3.rank)
  reducesTo_S256x3_S_d0_1 : S256x3.ReducesTo [0, 1] S_
  bcast_S_S3 : S_.BroadcastsInDim S3 (![] : Fin 0 → Fin S3.rank)
  reducesTo_S3_S_d0 : S3.ReducesTo [0] S_

variable [Facts]

def fn_part2 {F : FTy → Type} [FloatOps F] (main_arg7 : FVec F S256x3 .f32) (main_arg8 : FVec F S3 .f32) (main_v33 : IVec S_ 1) : IVec S_ 1 :=
  let main_v34 : FVec F S256x3 .f32 := Host.absf main_arg7
  let main_cst_12 : FVec F S_ .f32 := constant S_ .f32 0x7F800000#32
  let main_v35 : FVec F S256x3 .f32 := broadcastInDim S256x3 ![] bcast_S_S256x3 main_cst_12
  let main_v36 : IVec S256x3 1 := cmpf .olt main_v34 main_v35
  let main_c_13 : IVec S_ 1 := constantI S_ 1 1#1
  let main_v37 : IVec S_ 1 := (fun x v => Host.reduce IntOp.andi x v reducesTo_S256x3_S_d0_1 h_S_) main_v36 main_c_13
  let main_v38 : IVec S_ 1 := andi main_v33 main_v37
  let main_v39 : FVec F S3 .f32 := Host.absf main_arg8
  let main_cst_14 : FVec F S_ .f32 := constant S_ .f32 0x7F800000#32
  let main_v40 : FVec F S3 .f32 := broadcastInDim S3 ![] bcast_S_S3 main_cst_14
  let main_v41 : IVec S3 1 := cmpf .olt main_v39 main_v40
  let main_c_15 : IVec S_ 1 := constantI S_ 1 1#1
  let main_v42 : IVec S_ 1 := (fun x v => Host.reduce IntOp.andi x v reducesTo_S3_S_d0 h_S_) main_v41 main_c_15
  let main_v43 : IVec S_ 1 := andi main_v38 main_v42
  main_v43

def fn_part1 {F : FTy → Type} [FloatOps F] (main_arg4 : FVec F S512 .f32) (main_arg5 : FVec F S512x256 .f32) (main_arg6 : FVec F S256 .f32) (main_arg7 : FVec F S256x3 .f32) (main_arg8 : FVec F S3 .f32) (main_v13 : IVec S_ 1) (main_v16 : IVec S1024x512 1) : IVec S_ 1 :=
  let main_c_5 : IVec S_ 1 := constantI S_ 1 1#1
  let main_v17 : IVec S_ 1 := (fun x v => Host.reduce IntOp.andi x v reducesTo_S1024x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x256 .f32 := Host.absf main_arg5
  let main_cst_8 : FVec F S_ .f32 := constant S_ .f32 0x7F800000#32
  let main_v25 : FVec F S512x256 .f32 := broadcastInDim S512x256 ![] bcast_S_S512x256 main_cst_8
  let main_v26 : IVec S512x256 1 := cmpf .olt main_v24 main_v25
  let main_c_9 : IVec S_ 1 := constantI S_ 1 1#1
  let main_v27 : IVec S_ 1 := (fun x v => Host.reduce IntOp.andi x v reducesTo_S512x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_v33

def fn {F : FTy → Type} [FloatOps F] (main_arg0 : FVec F S262144x2 .f32) (main_arg1 : FVec F S2x1024 .f32) (main_arg2 : FVec F S1024 .f32) (main_arg3 : FVec F S1024x512 .f32) (main_arg4 : FVec F S512 .f32) (main_arg5 : FVec F S512x256 .f32) (main_arg6 : FVec F S256 .f32) (main_arg7 : FVec F S256x3 .f32) (main_arg8 : FVec F S3 .f32) : IVec S_ 1 :=
  let main_v0 : FVec F S262144x2 .f32 := Host.absf main_arg0
  let main_cst : FVec F S_ .f32 := constant S_ .f32 0x7F800000#32
  let main_v1 : FVec F S262144x2 .f32 := broadcastInDim S262144x2 ![] bcast_S_S262144x2 main_cst
  let main_v2 : IVec S262144x2 1 := cmpf .olt main_v0 main_v1
  let main_c : IVec S_ 1 := constantI S_ 1 1#1
  let main_v3 : IVec S_ 1 := (fun x v => Host.reduce IntOp.andi x v reducesTo_S262144x2_S_d0_1 h_S_) main_v2 main_c
  let main_v4 : FVec F S2x1024 .f32 := Host.absf main_arg1
  let main_cst_0 : FVec F S_ .f32 := constant S_ .f32 0x7F800000#32
  let main_v5 : FVec F S2x1024 .f32 := broadcastInDim S2x1024 ![] bcast_S_S2x1024 main_cst_0
  let main_v6 : IVec S2x1024 1 := cmpf .olt main_v4 main_v5
  let main_c_1 : IVec S_ 1 := constantI S_ 1 1#1
  let main_v7 : IVec S_ 1 := (fun x v => Host.reduce IntOp.andi x v reducesTo_S2x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x512 .f32 := Host.absf main_arg3
  let main_cst_4 : FVec F S_ .f32 := constant S_ .f32 0x7F800000#32
  let main_v15 : FVec F S1024x512 .f32 := broadcastInDim S1024x512 ![] bcast_S_S1024x512 main_cst_4
  let main_v16 : IVec S1024x512 1 := cmpf .olt main_v14 main_v15
  fn_part1 (F := F) main_arg4 main_arg5 main_arg6 main_arg7 main_arg8 main_v13 main_v16
-- ==== Kernel.lean ====
abbrev S262144x2 : Shape := ⟨2, ![262144, 2]⟩
abbrev S2x1024 : Shape := ⟨2, ![2, 1024]⟩
abbrev S1024 : Shape := ⟨1, ![1024]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S256x3 : Shape := ⟨2, ![256, 3]⟩
abbrev S3 : Shape := ⟨1, ![3]⟩
abbrev S_ : Shape := ⟨0, ![]⟩
abbrev S256x128 : Shape := ⟨2, ![256, 128]⟩
abbrev S128 : Shape := ⟨1, ![128]⟩
abbrev S1x1024 : Shape := ⟨2, ![1, 1024]⟩
abbrev S1x512 : Shape := ⟨2, ![1, 512]⟩
abbrev S1x256 : Shape := ⟨2, ![1, 256]⟩
abbrev S1x128 : Shape := ⟨2, ![1, 128]⟩
abbrev S262144x128 : Shape := ⟨2, ![262144, 128]⟩
abbrev S2048x2 : Shape := ⟨2, ![2048, 2]⟩
abbrev S2048x128 : Shape := ⟨2, ![2048, 128]⟩
abbrev S2048x1 : Shape := ⟨2, ![2048, 1]⟩
abbrev S2048x1024 : Shape := ⟨2, ![2048, 1024]⟩
abbrev S2048x512 : Shape := ⟨2, ![2048, 512]⟩
abbrev S2048x256 : Shape := ⟨2, ![2048, 256]⟩
abbrev S262144x3 : Shape := ⟨2, ![262144, 3]⟩

abbrev nBuf : Space → Nat
  | .hbm => 24
  | .vmem => 12
  | .smem => 0
  | _ => 0

abbrev bufTy : (tb : Table) → Fin (tcTables nBuf tb) → BufTy
  | .hbm, ⟨0, _⟩ => ⟨S262144x2, .f32⟩
  | .hbm, ⟨1, _⟩ => ⟨S2x1024, .f32⟩
  | .hbm, ⟨2, _⟩ => ⟨S1024, .f32⟩
  | .hbm, ⟨3, _⟩ => ⟨S1024x512, .f32⟩
  | .hbm, ⟨4, _⟩ => ⟨S512, .f32⟩
  | .hbm, ⟨5, _⟩ => ⟨S512x256, .f32⟩
  | .hbm, ⟨6, _⟩ => ⟨S256, .f32⟩
  | .hbm, ⟨7, _⟩ => ⟨S256x3, .f32⟩
  | .hbm, ⟨8, _⟩ => ⟨S3, .f32⟩
  | .hbm, ⟨9, _⟩ => ⟨S1024x512, .bf16⟩
  | .hbm, ⟨10, _⟩ => ⟨S512x256, .bf16⟩
  | .hbm, ⟨11, _⟩ => ⟨S_, .i32⟩
  | .hbm, ⟨12, _⟩ => ⟨S_, .f32⟩
  | .hbm, ⟨13, _⟩ => ⟨S256x128, .f32⟩
  | .hbm, ⟨14, _⟩ => ⟨S256x128, .bf16⟩
  | .hbm, ⟨15, _⟩ => ⟨S_, .i32⟩
  | .hbm, ⟨16, _⟩ => ⟨S_, .f32⟩
  | .hbm, ⟨17, _⟩ => ⟨S128, .f32⟩
  | .hbm, ⟨18, _⟩ => ⟨S1x1024, .f32⟩
  | .hbm, ⟨19, _⟩ => ⟨S1x512, .f32⟩
  | .hbm, ⟨20, _⟩ => ⟨S1x256, .f32⟩
  | .hbm, ⟨21, _⟩ => ⟨S1x128, .f32⟩
  | .hbm, ⟨22, _⟩ => ⟨S262144x128, .f32⟩
  | .hbm, ⟨23, _⟩ => ⟨S262144x3, .f32⟩
  | .local _ .vmem, ⟨0, _⟩ => ⟨S2048x2, .f32⟩
  | .local _ .vmem, ⟨1, _⟩ => ⟨S2048x2, .f32⟩
  | .local _ .vmem, ⟨2, _⟩ => ⟨S2x1024, .f32⟩
  | .local _ .vmem, ⟨3, _⟩ => ⟨S1x1024, .f32⟩
  | .local _ .vmem, ⟨4, _⟩ => ⟨S1024x512, .bf16⟩
  | .local _ .vmem, ⟨5, _⟩ => ⟨S1x512, .f32⟩
  | .local _ .vmem, ⟨6, _⟩ => ⟨S512x256, .bf16⟩
  | .local _ .vmem, ⟨7, _⟩ => ⟨S1x256, .f32⟩
  | .local _ .vmem, ⟨8, _⟩ => ⟨S256x128, .bf16⟩
  | .local _ .vmem, ⟨9, _⟩ => ⟨S1x128, .f32⟩
  | .local _ .vmem, ⟨10, _⟩ => ⟨S2048x128, .f32⟩
  | .local _ .vmem, ⟨11, _⟩ => ⟨S2048x128, .f32⟩
  | _, _ => ⟨S262144x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_call0_v0 : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_call1_v0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bitsLt_bf16_f32 : FTy.bits .bf16 < FTy.bits .f32
  pads_S256x3_S256x128_000_01250 : S256x3.Pads (![0, 0] : Fin 2 → Nat) ![0, 125] ![0, 0] S256x128
  h_S_ : 0 < S_.numel
  pads_S3_S128_01250 : S3.Pads (![0] : Fin 1 → Nat) ![125] ![0] S128
  shapeCasts_S1024_S1x1024 : S1024.ShapeCasts S1x1024
  shapeCasts_S512_S1x512 : S512.ShapeCasts S1x512
  shapeCasts_S256_S1x256 : S256.ShapeCasts S1x256
  shapeCasts_S128_S1x128 : S128.ShapeCasts S1x128
  inb_S2048x2_S2048x1_0_0 : ∀ a, (![0, 0] : Fin 2 → Nat) a + S2048x1.size a ≤ S2048x2.size a
  h_S2048x1 : 0 < S2048x1.numel
  inb_S2048x2_S2048x1_0_1 : ∀ a, (![0, 1] : Fin 2 → Nat) a + S2048x1.size a ≤ S2048x2.size a
  inb_S2x1024_S1x1024_0_0 : ∀ a, (![0, 0] : Fin 2 → Nat) a + S1x1024.size a ≤ S2x1024.size a
  h_S1x1024 : 0 < S1x1024.numel
  inb_S2x1024_S1x1024_1_0 : ∀ a, (![1, 0] : Fin 2 → Nat) a + S1x1024.size a ≤ S2x1024.size a
  broadcasts_S2048x1_S2048x1024 : S2048x1.Broadcasts S2048x1024
  broadcasts_S1x1024_S2048x1024 : S1x1024.Broadcasts S2048x1024
  inb_S1x1024_S1x1024_0_0 : ∀ a, (![0, 0] : Fin 2 → Nat) a + S1x1024.size a ≤ S1x1024.size a
  shapeCasts_S1x1024_S1x1024 : S1x1024.ShapeCasts S1x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S2048x128_S2048x128_0_0 : ∀ a, (![0, 0] : Fin 2 → Nat) a + S2048x128.size a ≤ S2048x128.size a
  h_S2048x128 : 0 < S2048x128.numel
  slices_S262144x128_S262144x3_0_0 : S262144x128.Slices ![0, 0] S262144x3
  dot_S2048x1024_S1024x512_S2048x512_1_0_0_1_n_n_wf : DotDims.WF S2048x1024 S1024x512 S2048x512 [1] [0] [0] [1] [] []
  dot_S2048x512_S512x256_S2048x256_1_0_0_1_n_n_wf : DotDims.WF S2048x512 S512x256 S2048x256 [1] [0] [0] [1] [] []
  dot_S2048x256_S256x128_S2048x128_1_0_0_1_n_n_wf : DotDims.WF S2048x256 S256x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x2.size a ≤ S262144x2.size a
  hwx0_0 : ∀ i : grid0.Coords, EltTy.bits .f32 = 32 ∨ (Rect.block (s := S262144x2) S2048x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x1024.size a ≤ S2x1024.size a
  hwx0_1 : ∀ i : grid0.Coords, EltTy.bits .f32 = 32 ∨ (Rect.block (s := S2x1024) S2x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S1024x512.size a
  hwx0_3 : ∀ i : grid0.Coords, EltTy.bits .bf16 = 32 ∨ (Rect.block (s := S1024x512) S1024x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x256.size a ≤ S512x256.size a
  hwx0_5 : ∀ i : grid0.Coords, EltTy.bits .bf16 = 32 ∨ (Rect.block (s := S512x256) S512x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x128.size a ≤ S256x128.size a
  hwx0_7 : ∀ i : grid0.Coords, EltTy.bits .bf16 = 32 ∨ (Rect.block (s := S256x128) S256x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048x128.size a ≤ S262144x128.size a
  hwx0_9 : ∀ i : grid0.Coords, EltTy.bits .f32 = 32 ∨ (Rect.block (s := S262144x128) S2048x128.size (cc0_transform_9 i) (hinb0_9 i)).WholeWords (EltTy.packing .f32)

variable [Facts₀]

def dot_S2048x1024_S1024x512_S2048x512_1_0_0_1_n_n : DotDims S2048x1024 S1024x512 S2048x512 where
  lhsContracting := [1]
  rhsContracting := [0]
  lhsNonContracting := [0]
  rhsNonContracting := [1]
  lhsBatch := []
  rhsBatch := []
  wf := dot_S2048x1024_S1024x512_S2048x512_1_0_0_1_n_n_wf
def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf

abbrev win0_0 : Pipeline.Window sig grid0 :=
  Pipeline.Window.ofSpec (Memref.whole main_arg0) S2048x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S512x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S256x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v9) S2048x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S262144x2 : Shape := ⟨2, ![262144, 2]⟩
abbrev S2x1024 : Shape := ⟨2, ![2, 1024]⟩
abbrev S1024 : Shape := ⟨1, ![1024]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S256x3 : Shape := ⟨2, ![256, 3]⟩
abbrev S3 : Shape := ⟨1, ![3]⟩
abbrev S262144x1024 : Shape := ⟨2, ![262144, 1024]⟩
abbrev S1x1024 : Shape := ⟨2, ![1, 1024]⟩
abbrev S_ : Shape := ⟨0, ![]⟩
abbrev S262144x512 : Shape := ⟨2, ![262144, 512]⟩
abbrev S1x512 : Shape := ⟨2, ![1, 512]⟩
abbrev S262144x256 : Shape := ⟨2, ![262144, 256]⟩
abbrev S1x256 : Shape := ⟨2, ![1, 256]⟩
abbrev S262144x3 : Shape := ⟨2, ![262144, 3]⟩
abbrev S1x3 : Shape := ⟨2, ![1, 3]⟩

abbrev nBuf : Space → Nat
  | .hbm => 34
  | .vmem => 0
  | .smem => 0
  | _ => 0

abbrev bufTy : (tb : Table) → Fin (tcTables nBuf tb) → BufTy
  | .hbm, ⟨0, _⟩ => ⟨S262144x2, .f32⟩
  | .hbm, ⟨1, _⟩ => ⟨S2x1024, .f32⟩
  | .hbm, ⟨2, _⟩ => ⟨S1024, .f32⟩
  | .hbm, ⟨3, _⟩ => ⟨S1024x512, .f32⟩
  | .hbm, ⟨4, _⟩ => ⟨S512, .f32⟩
  | .hbm, ⟨5, _⟩ => ⟨S512x256, .f32⟩
  | .hbm, ⟨6, _⟩ => ⟨S256, .f32⟩
  | .hbm, ⟨7, _⟩ => ⟨S256x3, .f32⟩
  | .hbm, ⟨8, _⟩ => ⟨S3, .f32⟩
  | .hbm, ⟨9, _⟩ => ⟨S262144x1024, .f32⟩
  | .hbm, ⟨10, _⟩ => ⟨S1x1024, .f32⟩
  | .hbm, ⟨11, _⟩ => ⟨S262144x1024, .f32⟩
  | .hbm, ⟨12, _⟩ => ⟨S262144x1024, .f32⟩
  | .hbm, ⟨13, _⟩ => ⟨S_, .f32⟩
  | .hbm, ⟨14, _⟩ => ⟨S262144x1024, .f32⟩
  | .hbm, ⟨15, _⟩ => ⟨S262144x1024, .f32⟩
  | .hbm, ⟨16, _⟩ => ⟨S262144x512, .f32⟩
  | .hbm, ⟨17, _⟩ => ⟨S1x512, .f32⟩
  | .hbm, ⟨18, _⟩ => ⟨S262144x512, .f32⟩
  | .hbm, ⟨19, _⟩ => ⟨S262144x512, .f32⟩
  | .hbm, ⟨20, _⟩ => ⟨S_, .f32⟩
  | .hbm, ⟨21, _⟩ => ⟨S262144x512, .f32⟩
  | .hbm, ⟨22, _⟩ => ⟨S262144x512, .f32⟩
  | .hbm, ⟨23, _⟩ => ⟨S262144x256, .f32⟩
  | .hbm, ⟨24, _⟩ => ⟨S1x256, .f32⟩
  | .hbm, ⟨25, _⟩ => ⟨S262144x256, .f32⟩
  | .hbm, ⟨26, _⟩ => ⟨S262144x256, .f32⟩
  | .hbm, ⟨27, _⟩ => ⟨S_, .f32⟩
  | .hbm, ⟨28, _⟩ => ⟨S262144x256, .f32⟩
  | .hbm, ⟨29, _⟩ => ⟨S262144x256, .f32⟩
  | .hbm, ⟨30, _⟩ => ⟨S262144x3, .f32⟩
  | .hbm, ⟨31, _⟩ => ⟨S1x3, .f32⟩
  | .hbm, ⟨32, _⟩ => ⟨S262144x3, .f32⟩
  | .hbm, ⟨33, _⟩ => ⟨S262144x3, .f32⟩
  | _, _ => ⟨S262144x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_cst : Ref sig .tc := ⟨.hbm, 13, rfl⟩
abbrev main_call0_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_cst : Ref sig .tc := ⟨.hbm, 20, rfl⟩
abbrev main_call1_v0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_call2_cst : Ref sig .tc := ⟨.hbm, 27, rfl⟩
abbrev main_call2_v0 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S262144x1024_0_1 : S1x1024.BroadcastsInDim S262144x1024 (![0, 1] : Fin 2 → Fin S262144x1024.rank)
  bcast_S_S262144x1024 : S_.BroadcastsInDim S262144x1024 (![] : Fin 0 → Fin S262144x1024.rank)
  bcast_S512_S1x512_1 : S512.BroadcastsInDim S1x512 (![1] : Fin 1 → Fin S1x512.rank)
  bcast_S1x512_S262144x512_0_1 : S1x512.BroadcastsInDim S262144x512 (![0, 1] : Fin 2 → Fin S262144x512.rank)
  bcast_S_S262144x512 : S_.BroadcastsInDim S262144x512 (![] : Fin 0 → Fin S262144x512.rank)
  bcast_S256_S1x256_1 : S256.BroadcastsInDim S1x256 (![1] : Fin 1 → Fin S1x256.rank)
  bcast_S1x256_S262144x256_0_1 : S1x256.BroadcastsInDim S262144x256 (![0, 1] : Fin 2 → Fin S262144x256.rank)
  bcast_S_S262144x256 : S_.BroadcastsInDim S262144x256 (![] : Fin 0 → Fin S262144x256.rank)
  bcast_S3_S1x3_1 : S3.BroadcastsInDim S1x3 (![1] : Fin 1 → Fin S1x3.rank)
  bcast_S1x3_S262144x3_0_1 : S1x3.BroadcastsInDim S262144x3 (![0, 1] : Fin 2 → Fin S262144x3.rank)
  dot_S262144x2_S2x1024_S262144x1024_1_0_0_1_n_n_wf : DotDims.WF S262144x2 S2x1024 S262144x1024 [1] [0] [0] [1] [] []
  dot_S262144x1024_S1024x512_S262144x512_1_0_0_1_n_n_wf : DotDims.WF S262144x1024 S1024x512 S262144x512 [1] [0] [0] [1] [] []
  dot_S262144x512_S512x256_S262144x256_1_0_0_1_n_n_wf : DotDims.WF S262144x512 S512x256 S262144x256 [1] [0] [0] [1] [] []
  dot_S262144x256_S256x3_S262144x3_1_0_0_1_n_n_wf : DotDims.WF S262144x256 S256x3 S262144x3 [1] [0] [0] [1] [] []

variable [Facts₀]

def dot_S262144x2_S2x1024_S262144x1024_1_0_0_1_n_n : DotDims S262144x2 S2x1024 S262144x1024 where
  lhsContracting := [1]
  rhsContracting := [0]
  lhsNonContracting := [0]
  rhsNonContracting := [1]
  lhsBatch := []
  rhsBatch := []
  wf := dot_S262144x2_S2x1024_S262144x1024_1_0_0_1_n_n_wf
def dot_S262144x1024_S1024x512_S262144x512_1_0_0_1_n_n : DotDims S262144x1024 S1024x512 S262144x512 where
  lhsContracting := [1]
  rhsContracting := [0]
  lhsNonContracting := [0]
  rhsNonContracting := [1]
  lhsBatch := []
  rhsBatch := []
  wf := dot_S262144x1024_S1024x512_S262144x512_1_0_0_1_n_n_wf
def dot_S262144x512_S512x256_S262144x256_1_0_0_1_n_n : DotDims S262144x512 S512x256 S262144x256 where
  lhsContracting := [1]
  rhsContracting := [0]
  lhsNonContracting := [0]
  rhsNonContracting := [1]
  lhsBatch := []
  rhsBatch := []
  wf := dot_S262144x512_S512x256_S262144x256_1_0_0_1_n_n_wf
def dot_S262144x256_S256x3_S262144x3_1_0_0_1_n_n : DotDims S262144x256 S256x3 S262144x3 where
  lhsContracting := [1]
  rhsContracting := [0]
  lhsNonContracting := [0]
  rhsNonContracting := [1]
  lhsBatch := []
  rhsBatch := []
  wf := dot_S262144x256_S256x3_S262144x3_1_0_0_1_n_n_wf

class Facts : Prop extends Facts₀ where

variable [Facts]
-- ==== Proof.LibPlainDot.lean ====
/-
  A plain matrix product, read at one entry.

  A contraction with the dimension numbers of "rows of an [n, k] matrix against columns of a [k, d] matrix" (contract
  axis 1 of the left with axis 0 of the right, no batch axis) sums, at entry (p, o), the products of row p of the left
  operand with column o of the right: the sum over j of lhs(p, j) · rhs(j, o).  This holds for any record of those
  dimension numbers, whatever its extents and formats, and gives the same reading of a matrix unit's product into the
  zero accumulator and of the host's dot_general, on the extended reals.
-/
import Idealize.ShloMosaic.PureOps.Ideal.Laws
import Idealize.ShloMosaic.Lib.ValueIdx

noncomputable section

namespace Cert.LibPlainDot

open Idealize.ShloMosaic Idealize.ShloMosaic.ValueIdx

/-- The sum over the contraction index is the sum over the one contracted coordinate j, the left operand read at
    (p, j) and the right at (j, o). -/
theorem sum_contr_plain {n k d : ℕ} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = [])
    (lhs : (⟨2, ![n, k]⟩ : Shape).Idx → EReal) (rhs : (⟨2, ![k, d]⟩ : Shape).Idx → EReal) (p : Fin n) (o : Fin d) :
    ∑ q : D.contr.Idx, lhs (D.lhsIdx (ix2 p o) q) * rhs (D.rhsIdx (ix2 p o) q) = ∑ j : Fin k, lhs (ix2 p j) * rhs (ix2 j o) := by
  obtain ⟨lc, rc, ln, rn, lb, rb, wf⟩ := D
  simp only at hlc hrc hln hrn hlb hrb
  subst hlc hrc hln hrn hlb hrb
  rw [← Equiv.sum_comp (contrEquiv1 (DotDims.mk [1] [0] [0] [1] [] [] wf) k rfl rfl).symm]
  refine Finset.sum_congr rfl fun j _ => ?_
  have hk := contrEquiv1_symm_val (DotDims.mk [1] [0] [0] [1] [] [] wf) k rfl rfl j
  have el : (DotDims.mk [1] [0] [0] [1] [] [] wf).lhsIdx (ix2 p o) ((contrEquiv1 (DotDims.mk [1] [0] [0] [1] [] [] wf) k rfl rfl).symm j) = ix2 p j :=
    funext fun a => Fin.ext (by
      match a with
      | ⟨0, _⟩ => rfl
      | ⟨1, _⟩ => exact ((DotDims.mk [1] [0] [0] [1] [] [] wf).lhsIdx_val_of_single rfl _ _).trans hk)
  have er : (DotDims.mk [1] [0] [0] [1] [] [] wf).rhsIdx (ix2 p o) ((contrEquiv1 (DotDims.mk [1] [0] [0] [1] [] [] wf) k rfl rfl).symm j) = ix2 j o :=
    funext fun a => Fin.ext (by
      match a with
      | ⟨0, _⟩ => exact ((DotDims.mk [1] [0] [0] [1] [] [] wf).rhsIdx_val_of_single rfl _ _).trans hk
      | ⟨1, _⟩ => rfl)
  rw [el, er]

/-- A matrix unit's product into the zero accumulator, at (p, o). -/
theorem matmul_zero_apply {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = []) (prec : Option ContractPrecision)
    (lhs : FVec Ideal ⟨2, ![n, k]⟩ φ₁) (rhs : FVec Ideal ⟨2, ![k, d]⟩ φ₂) (p : Fin n) (o : Fin d) :
    FloatOps.matmul D prec lhs rhs (constant ⟨2, ![n, d]⟩ .f32 0x00000000#32) (ix2 p o) = ∑ j : Fin k, lhs (ix2 p j) * rhs (ix2 j o) :=
  (Ideal.matmul_constant_zero_apply D prec lhs rhs (ix2 p o)).trans (sum_contr_plain D hlc hrc hln hrn hlb hrb lhs rhs p o)

/-- The host's dot_general, at (p, o). -/
theorem dotGeneral_apply {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = []) (prec : Option ContractPrecision) (sched : HostSchedule)
    (lhs : FVec Ideal ⟨2, ![n, k]⟩ φ₁) (rhs : FVec Ideal ⟨2, ![k, d]⟩ φ₂) (p : Fin n) (o : Fin d) :
    FloatOps.dotGeneral D prec sched lhs rhs (ix2 p o) = ∑ j : Fin k, lhs (ix2 p j) * rhs (ix2 j o) :=
  (Ideal.dotGeneral_apply D prec sched lhs rhs (ix2 p o)).trans (sum_contr_plain D hlc hrc hln hrn hlb hrb lhs rhs p o)

end Cert.LibPlainDot

end
-- ==== Proof.LibBiasRow.lean ====
/-
  A bias vector laid along the rows of a matrix, read at an entry.

  A vector [D] reshaped to the one-row matrix [1, D] has the vector's element k at (0, k); that row spread over N rows has,
  at (p, k), the row's element (0, k).  Together: adding a bias vector to every row of an [N, D] matrix adds element k of the
  vector at column k.  General in the extents and the element type.
-/
import Idealize.ShloMosaic.Lib.ValueIdx
import Idealize.ShloMosaic.Lib.Pipeline.Value

noncomputable section

namespace Cert.LibBiasRow

open Idealize.ShloMosaic Idealize.ShloMosaic.ValueIdx

/-- A vector reshaped to a one-row matrix: element (u, k) of the row is element k of the vector. -/
theorem vec_as_row_apply {α : Type} {D : ℕ} (h : (⟨1, ![D]⟩ : Shape).ShapeCasts ⟨2, ![1, D]⟩)
    (v : (⟨1, ![D]⟩ : Shape).Idx → α) (u : Fin 1) (k : Fin D) :
    shapeCast ⟨2, ![1, D]⟩ v h (ix2 u k) = v (ix1 k) := by
  refine (shapeCast_addUnit_apply (n := 1) ![D] v h (ix2 u k)).trans (congrArg v ?_)
  funext a
  match a with
  | ⟨0, _⟩ => rfl

/-- A one-row matrix spread over N rows: element (p, k) is the row's element (0, k) (the first axis is a unit axis; the
    second is read at the column, also when D = 1). -/
theorem row_spread_apply {α : Type} {N D : ℕ} (h : (⟨2, ![1, D]⟩ : Shape).Broadcasts ⟨2, ![N, D]⟩)
    (v : (⟨2, ![1, D]⟩ : Shape).Idx → α) (p : Fin N) (k : Fin D) :
    broadcastTo ⟨2, ![N, D]⟩ v h (ix2 p k) = v (ix2 (0 : Fin 1) k) :=
  broadcastTo_apply v h (ix2 p k) (ix2 (0 : Fin 1) k) (fun a => by
    match a with
    | ⟨0, _⟩ => rfl
    | ⟨1, _⟩ =>
      show k.val = if D = 1 then 0 else k.val
      split
      · have := k.isLt; omega
      · rfl)

/-- The two together: a vector reshaped to a row and spread over N rows reads, at (p, k), the vector's element k. -/
theorem vec_spread_apply {α : Type} {N D : ℕ} (h₁ : (⟨1, ![D]⟩ : Shape).ShapeCasts ⟨2, ![1, D]⟩)
    (h₂ : (⟨2, ![1, D]⟩ : Shape).Broadcasts ⟨2, ![N, D]⟩) (v : (⟨1, ![D]⟩ : Shape).Idx → α) (p : Fin N) (k : Fin D) :
    broadcastTo ⟨2, ![N, D]⟩ (shapeCast ⟨2, ![1, D]⟩ v h₁) h₂ (ix2 p k) = v (ix1 k) :=
  (row_spread_apply h₂ _ p k).trans (vec_as_row_apply h₁ v 0 k)

end Cert.LibBiasRow

end
-- ==== Proof.LibRowBroadcast.lean ====
/-
  Two more `broadcastInDim` forms read at an index: a vector [D] placed as the one row of a [1, D] matrix (the operand's
  axis sent to the result's axis 1), and a [1, D] row spread over N rows. General in the extents and the element type.
-/
import Idealize.ShloMosaic.Lib.ValueIdx
import Idealize.ShloMosaic.Lib.Pipeline.Value

noncomputable section

namespace Cert.LibRowBroadcast

open Idealize.ShloMosaic Idealize.ShloMosaic.ValueIdx

/-- A vector as a row: element (u, o) of the row is element o of the vector (also when D = 1, where the operand's one
    axis is a unit axis read at 0 = o). -/
theorem vec_row_apply {α : Type} {D : ℕ} (h : (⟨1, ![D]⟩ : Shape).BroadcastsInDim ⟨2, ![1, D]⟩ ![1])
    (v : (⟨1, ![D]⟩ : Shape).Idx → α) (u : Fin 1) (o : Fin D) :
    broadcastInDim ⟨2, ![1, D]⟩ ![1] h v (ix2 u o) = v (ix1 o) :=
  broadcastInDim_apply ![1] h v (ix2 u o) (ix1 o) (fun a => by
    match a with
    | ⟨0, _⟩ =>
      show o.val = if D = 1 then 0 else o.val
      split
      · have := o.isLt; omega
      · rfl)

/-- A row spread over N rows: element (p, o) is the row's element (0, o) (the operand's first axis is a unit axis; its
    second is read at the column, also when D = 1). -/
theorem row_mat_apply {α : Type} {N D : ℕ} (h : (⟨2, ![1, D]⟩ : Shape).BroadcastsInDim ⟨2, ![N, D]⟩ ![0, 1])
    (v : (⟨2, ![1, D]⟩ : Shape).Idx → α) (p : Fin N) (o : Fin D) :
    broadcastInDim ⟨2, ![N, D]⟩ ![0, 1] h v (ix2 p o) = v (ix2 (0 : Fin 1) o) :=
  broadcastInDim_apply ![0, 1] h v (ix2 p o) (ix2 (0 : Fin 1) o) (fun a => by
    match a with
    | ⟨0, _⟩ => rfl
    | ⟨1, _⟩ =>
      show o.val = if D = 1 then 0 else o.val
      split
      · have := o.isLt; omega
      · rfl)

end Cert.LibRowBroadcast

end
-- ==== Proof.LibRowStages.lean ====
/-
  Row-wise stages on matrices of extended reals: the matrix product, a bias row added to every row, the floor at zero.

  On the extended reals an [n, k] matrix times a [k, d] matrix has at (p, o) the sum over j of a(p, j) * w(j, o); adding a
  one-row matrix to every row adds b(0, j) at (p, j); flooring takes the maximum with what the zero word of the 32-bit
  float format denotes.  Each of the three works one row at a time: row p of the result depends on row p of the matrix
  operand only.  So if row q of a matrix ab is row p of a matrix a, the same holds of their images under any of the three
  (`RowEq`, `mm_row`, `addRow_row`, `relu_row`), hence under any composition: a stage computed on a block of rows is the
  same rows of the stage of the whole matrix.  Nothing is distributed or cancelled, so this holds at the infinities too.

  The operations a vector unit and a host program apply are these functions, entry by entry: a matrix unit's product into
  the zero accumulator and the host's contraction with the same dimension numbers are `mm` whatever the operands' float
  formats; a bias row spread over the rows and added is `addRow` (for the unit's spread of a one-row matrix, and for the
  host's vector placed as a row and then spread); the maximum against a splat of the zero word is `relu` (splat from a
  scalar constant by the unit, from a scalar array by the host); a change to a narrower float format changes nothing.
-/
import Idealize.ShloMosaic.PureOps.Ideal
import Idealize.ShloMosaic.PureOps.Ideal.Laws
import Idealize.ShloMosaic.Lib.ValueIdx
import Idealize.ShloMosaic.Lib.Pipeline.Value
import proofs.«164908_j53420803228395_2_alg».proof.Proof.LibPlainDot
import proofs.«164908_j53420803228395_2_alg».proof.Proof.LibBiasRow
import proofs.«164908_j53420803228395_2_alg».proof.Proof.LibRowBroadcast

noncomputable section

open scoped BigOperators

namespace Cert.LibRowStages

open Idealize.ShloMosaic Idealize.ShloMosaic.ValueIdx

/-- An [a, b] matrix of extended reals. -/
abbrev Mat (a b : ℕ) : Type := (⟨2, ![a, b]⟩ : Shape).Idx → EReal

/-- The floor of the rectifier: what the zero word of the 32-bit float format denotes (never evaluated: the same word
    stands on both sides of every equation). -/
def floor0 : EReal := Ideal.ofBits .f32 0x00000000#32

/-- The matrix product: entry (p, o) is the sum over j of a(p, j) * w(j, o). -/
def mm {n k d : ℕ} (a : Mat n k) (w : Mat k d) : Mat n d :=
  fun i => ∑ j : Fin k, a (ix2 (i 0) j) * w (ix2 j (i 1))

/-- A one-row matrix added to every row: entry (p, j) gains b(0, j). -/
def addRow {n k : ℕ} (a : Mat n k) (b : Mat 1 k) : Mat n k :=
  fun i => a i + b (ix2 (0 : Fin 1) (i 1))

/-- Every entry floored at zero. -/
def relu {n k : ℕ} (a : Mat n k) : Mat n k := fun i => max (a i) floor0

/-! ## One row at a time -/

/-- Row q of ab is row p of a. -/
def RowEq {m n k : ℕ} (ab : Mat m k) (q : Fin m) (a : Mat n k) (p : Fin n) : Prop :=
  ∀ j : Fin k, ab (ix2 q j) = a (ix2 p j)

theorem mm_row {m n k d : ℕ} {ab : Mat m k} {q : Fin m} {a : Mat n k} {p : Fin n} (h : RowEq ab q a p) (w : Mat k d) :
    RowEq (mm ab w) q (mm a w) p := fun o => by
  show ∑ j : Fin k, ab (ix2 q j) * w (ix2 j o) = ∑ j : Fin k, a (ix2 p j) * w (ix2 j o)
  exact Finset.sum_congr rfl fun j _ => by rw [h j]

theorem addRow_row {m n k : ℕ} {ab : Mat m k} {q : Fin m} {a : Mat n k} {p : Fin n} (h : RowEq ab q a p) (b : Mat 1 k) :
    RowEq (addRow ab b) q (addRow a b) p := fun j => by
  show ab (ix2 q j) + b (ix2 (0 : Fin 1) j) = a (ix2 p j) + b (ix2 (0 : Fin 1) j)
  rw [h j]

theorem relu_row {m n k : ℕ} {ab : Mat m k} {q : Fin m} {a : Mat n k} {p : Fin n} (h : RowEq ab q a p) :
    RowEq (relu ab) q (relu a) p := fun j => by
  show max (ab (ix2 q j)) floor0 = max (a (ix2 p j)) floor0
  rw [h j]

/-! ## The machine's operations are these functions -/

/-- A matrix unit's product into the zero accumulator is the matrix product, whatever the operands' formats. -/
theorem matmul_eq_mm {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![n, k]⟩ φ₁) (r : FVec Ideal ⟨2, ![k, d]⟩ φ₂) :
    matmul D prec l r (constant ⟨2, ![n, d]⟩ .f32 0x00000000#32) = mm l r := by
  funext i
  obtain ⟨p, o, rfl⟩ : ∃ (p : Fin n) (o : Fin d), i = ix2 p o := ⟨i 0, i 1, eq_ix2 i⟩
  exact Cert.LibPlainDot.matmul_zero_apply D hlc hrc hln hrn hlb hrb prec l r p o

/-- The host's contraction with the same dimension numbers is the matrix product. -/
theorem dotGeneral_eq_mm {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![n, k]⟩ φ₁) (r : FVec Ideal ⟨2, ![k, d]⟩ φ₂) :
    Host.dotGeneral D prec l r = mm l r := by
  funext i
  obtain ⟨p, o, rfl⟩ : ∃ (p : Fin n) (o : Fin d), i = ix2 p o := ⟨i 0, i 1, eq_ix2 i⟩
  exact Cert.LibPlainDot.dotGeneral_apply D hlc hrc hln hrn hlb hrb prec .single l r p o

/-- Adding a one-row matrix spread over the rows is `addRow`. -/
theorem addf_spread_eq_addRow {n k : ℕ} (h : (⟨2, ![1, k]⟩ : Shape).Broadcasts ⟨2, ![n, k]⟩)
    (a : FVec Ideal ⟨2, ![n, k]⟩ .f32) (b : FVec Ideal ⟨2, ![1, k]⟩ .f32) :
    addf a (broadcastTo ⟨2, ![n, k]⟩ b h) = addRow a b := by
  funext i
  obtain ⟨p, j, rfl⟩ : ∃ (p : Fin n) (j : Fin k), i = ix2 p j := ⟨i 0, i 1, eq_ix2 i⟩
  show a (ix2 p j) + broadcastTo ⟨2, ![n, k]⟩ b h (ix2 p j) = a (ix2 p j) + b (ix2 (0 : Fin 1) j)
  rw [Cert.LibBiasRow.row_spread_apply h b p j]

/-- The maximum against a splat of the zero word is `relu`. -/
theorem maximumf_zero_eq_relu {n k : ℕ} (a : FVec Ideal ⟨2, ![n, k]⟩ .f32) :
    maximumf a (broadcast ⟨2, ![n, k]⟩ (Scalar.ofBits (F := Ideal) .f32 0x00000000#32)) = relu a := rfl

/-- A change to a narrower float format changes no extended real. -/
theorem truncf_eq {s : Shape} {φ ψ : FTy} (a : FVec Ideal s φ) (h : ψ.bits < φ.bits) :
    (truncf ψ a h : FVec Ideal s ψ) = a := rfl

/-! ## The host program's spellings -/

/-- Adding a vector placed as a row and spread over the rows is `addRow` of the vector reshaped to a row. -/
theorem addf_hostBias_eq_addRow {n k : ℕ} (h1 : (⟨1, ![k]⟩ : Shape).BroadcastsInDim ⟨2, ![1, k]⟩ ![1])
    (h2 : (⟨2, ![1, k]⟩ : Shape).BroadcastsInDim ⟨2, ![n, k]⟩ ![0, 1]) (hc : (⟨1, ![k]⟩ : Shape).ShapeCasts ⟨2, ![1, k]⟩)
    (a : FVec Ideal ⟨2, ![n, k]⟩ .f32) (v : FVec Ideal ⟨1, ![k]⟩ .f32) :
    addf a (broadcastInDim ⟨2, ![n, k]⟩ ![0, 1] h2 (broadcastInDim ⟨2, ![1, k]⟩ ![1] h1 v))
      = addRow a (shapeCast ⟨2, ![1, k]⟩ v hc) := by
  funext i
  obtain ⟨p, j, rfl⟩ : ∃ (p : Fin n) (j : Fin k), i = ix2 p j := ⟨i 0, i 1, eq_ix2 i⟩
  show a (ix2 p j) + broadcastInDim ⟨2, ![n, k]⟩ ![0, 1] h2 (broadcastInDim ⟨2, ![1, k]⟩ ![1] h1 v) (ix2 p j)
    = a (ix2 p j) + shapeCast ⟨2, ![1, k]⟩ v hc (ix2 (0 : Fin 1) j)
  rw [Cert.LibRowBroadcast.row_mat_apply h2 _ p j, Cert.LibRowBroadcast.vec_row_apply h1 v 0 j,
    Cert.LibBiasRow.vec_as_row_apply hc v 0 j]

/-- The maximum against the zero word spread from a scalar is `relu`. -/
theorem maximumf_hostZero_eq_relu {n k : ℕ} (h : (⟨0, ![]⟩ : Shape).BroadcastsInDim ⟨2, ![n, k]⟩ ![])
    (a : FVec Ideal ⟨2, ![n, k]⟩ .f32) :
    maximumf a (broadcastInDim ⟨2, ![n, k]⟩ ![] h (constant (F := Ideal) ⟨0, ![]⟩ .f32 0x00000000#32)) = relu a := by
  funext i
  show max (a i) (broadcastInDim ⟨2, ![n, k]⟩ ![] h (constant (F := Ideal) ⟨0, ![]⟩ .f32 0x00000000#32) i) = max (a i) floor0
  rw [broadcastInDim_apply ![] h _ i ix0 (fun a => a.elim0)]
  rfl

end Cert.LibRowStages

end
-- ==== Proof.Network.lean ====
/-
  The four-layer perceptron on matrices of extended reals.

  An affine layer takes an [n, k] matrix a, a [k, d] weight matrix w and a one-row bias b to a·w with b added to every
  row; a hidden layer floors that at zero.  The network is three hidden layers of widths 1024, 512 and 256 on an [n, 2]
  input, followed by an affine head of any width d.

  Two facts are all that is used of it.  Row p of the network's result depends on row p of the input only: if row q of
  a matrix xb is row p of a matrix x then row q of the network on xb is row p of the network on x (each stage has this
  property, so the composition has).  And column o of an affine layer depends on column o of its weight matrix and of
  its bias only: a head widened by further columns has the narrow head's values in the columns they share.  Nothing is
  distributed or cancelled, so both hold at the infinities too.
-/
import Idealize.ShloMosaic.PureOps.Ideal
import Idealize.ShloMosaic.Lib.ValueIdx
import Idealize.ShloMosaic.Lib.Pipeline.Value
import proofs.«164908_j53420803228395_2_alg».proof.Proof.LibRowStages

noncomputable section

open scoped BigOperators

namespace Cert.Mlp

open Idealize.ShloMosaic Idealize.ShloMosaic.ValueIdx Cert.LibRowStages

/-- An affine layer: the product a·w with the bias row added to every row. -/
def affine {n k d : ℕ} (a : Mat n k) (w : Mat k d) (b : Mat 1 d) : Mat n d := addRow (mm a w) b

/-- A hidden layer: an affine layer floored at zero. -/
def hidden {n k d : ℕ} (a : Mat n k) (w : Mat k d) (b : Mat 1 d) : Mat n d := relu (affine a w b)

/-- The network: 2 → 1024 → 512 → 256 → d, floored after each of the first three layers. -/
def net {n d : ℕ} (x : Mat n 2) (w0 : Mat 2 1024) (b0 : Mat 1 1024) (w1 : Mat 1024 512) (b1 : Mat 1 512)
    (w2 : Mat 512 256) (b2 : Mat 1 256) (w3 : Mat 256 d) (b3 : Mat 1 d) : Mat n d :=
  affine (hidden (hidden (hidden x w0 b0) w1 b1) w2 b2) w3 b3

/-! ## One row at a time -/

theorem affine_row {m n k d : ℕ} {ab : Mat m k} {q : Fin m} {a : Mat n k} {p : Fin n} (h : RowEq ab q a p)
    (w : Mat k d) (b : Mat 1 d) : RowEq (affine ab w b) q (affine a w b) p :=
  addRow_row (mm_row h w) b

theorem hidden_row {m n k d : ℕ} {ab : Mat m k} {q : Fin m} {a : Mat n k} {p : Fin n} (h : RowEq ab q a p)
    (w : Mat k d) (b : Mat 1 d) : RowEq (hidden ab w b) q (hidden a w b) p :=
  relu_row (affine_row h w b)

/-- Row q of the network on xb is row p of the network on x when row q of xb is row p of x. -/
theorem net_row {m n d : ℕ} {xb : Mat m 2} {q : Fin m} {x : Mat n 2} {p : Fin n} (h : RowEq xb q x p)
    (w0 : Mat 2 1024) (b0 : Mat 1 1024) (w1 : Mat 1024 512) (b1 : Mat 1 512) (w2 : Mat 512 256) (b2 : Mat 1 256)
    (w3 : Mat 256 d) (b3 : Mat 1 d) :
    RowEq (net xb w0 b0 w1 b1 w2 b2 w3 b3) q (net x w0 b0 w1 b1 w2 b2 w3 b3) p :=
  affine_row (hidden_row (hidden_row (hidden_row h w0 b0) w1 b1) w2 b2) w3 b3

/-- The same read at two indices: when row (y 0) of xb is row (i 0) of x and y, i name the same column, the network on xb
    at y is the network on x at i. -/
theorem net_at {m n d : ℕ} {xb : Mat m 2} {x : Mat n 2} (y : (⟨2, ![m, d]⟩ : Shape).Idx)
    (i : (⟨2, ![n, d]⟩ : Shape).Idx) (h : RowEq xb (y 0) x (i 0)) (h1 : i 1 = y 1)
    (w0 : Mat 2 1024) (b0 : Mat 1 1024) (w1 : Mat 1024 512) (b1 : Mat 1 512) (w2 : Mat 512 256) (b2 : Mat 1 256)
    (w3 : Mat 256 d) (b3 : Mat 1 d) :
    net xb w0 b0 w1 b1 w2 b2 w3 b3 y = net x w0 b0 w1 b1 w2 b2 w3 b3 i :=
  calc net xb w0 b0 w1 b1 w2 b2 w3 b3 y
      = net xb w0 b0 w1 b1 w2 b2 w3 b3 (ix2 (y 0) (y 1)) := congrArg _ (eq_ix2 y)
    _ = net x w0 b0 w1 b1 w2 b2 w3 b3 (ix2 (i 0) (y 1)) := net_row h w0 b0 w1 b1 w2 b2 w3 b3 (y 1)
    _ = net x w0 b0 w1 b1 w2 b2 w3 b3 (ix2 (i 0) (i 1)) := by rw [h1]
    _ = net x w0 b0 w1 b1 w2 b2 w3 b3 i := congrArg _ (eq_ix2 i).symm

/-! ## One column of the head at a time -/

/-- If column o' of (w', b') is column o of (w, b), column o' of the affine layer with (w', b') is column o of the affine
    layer with (w, b). -/
theorem affine_col {n k d d' : ℕ} (a : Mat n k) {w : Mat k d} {b : Mat 1 d} {w' : Mat k d'} {b' : Mat 1 d'}
    {o : Fin d} {o' : Fin d'} (hw : ∀ j : Fin k, w' (ix2 j o') = w (ix2 j o))
    (hb : b' (ix2 (0 : Fin 1) o') = b (ix2 (0 : Fin 1) o)) (p : Fin n) :
    affine a w' b' (ix2 p o') = affine a w b (ix2 p o) := by
  show (∑ j : Fin k, a (ix2 p j) * w' (ix2 j o')) + b' (ix2 (0 : Fin 1) o')
    = (∑ j : Fin k, a (ix2 p j) * w (ix2 j o)) + b (ix2 (0 : Fin 1) o)
  rw [hb]
  exact congrArg (· + b (ix2 (0 : Fin 1) o)) (Finset.sum_congr rfl fun j _ => by rw [hw j])

/-- The network with a head of d' columns, cut back to its first d columns, is the network with the head of d columns
    when the wide head's first d columns are the narrow head's. -/
theorem net_slice {n d d' : ℕ} (hd : d ≤ d') (hs : (⟨2, ![n, d']⟩ : Shape).Slices ![0, 0] ⟨2, ![n, d]⟩)
    (x : Mat n 2) (w0 : Mat 2 1024) (b0 : Mat 1 1024) (w1 : Mat 1024 512) (b1 : Mat 1 512) (w2 : Mat 512 256)
    (b2 : Mat 1 256) (w3 : Mat 256 d) (b3 : Mat 1 d) (w3' : Mat 256 d') (b3' : Mat 1 d')
    (hw : ∀ (j : Fin 256) (o : Fin d), w3' (ix2 j (⟨o.val, lt_of_lt_of_le o.isLt hd⟩ : Fin d')) = w3 (ix2 j o))
    (hb : ∀ o : Fin d, b3' (ix2 (0 : Fin 1) (⟨o.val, lt_of_lt_of_le o.isLt hd⟩ : Fin d')) = b3 (ix2 (0 : Fin 1) o)) :
    extractStridedSlice ⟨2, ![n, d]⟩ ![0, 0] (net x w0 b0 w1 b1 w2 b2 w3' b3') hs = net x w0 b0 w1 b1 w2 b2 w3 b3 := by
  funext i
  obtain ⟨p, o, rfl⟩ : ∃ (p : Fin n) (o : Fin d), i = ix2 p o := ⟨i 0, i 1, eq_ix2 i⟩
  rw [extractStridedSlice_apply ![0, 0] _ hs (ix2 p o) (ix2 p (⟨o.val, lt_of_lt_of_le o.isLt hd⟩ : Fin d')) (fun a => by
    match a with
    | ⟨0, _⟩ => show p.val = 0 + p.val; omega
    | ⟨1, _⟩ => show o.val = 0 + o.val; omega)]
  exact affine_col _ (fun j => hw j o) (hb o) p

/-! ## A bias vector as a row -/

/-- A vector [k] as the one-row matrix [1, k]: entry (0, j) is element j. -/
def asRow {k : ℕ} (v : (⟨1, ![k]⟩ : Shape).Idx → EReal) : Mat 1 k := fun i => v (ix1 (i 1))

/-- A vector reshaped to a one-row matrix is that row. -/
theorem shapeCast_eq_asRow {k : ℕ} (h : (⟨1, ![k]⟩ : Shape).ShapeCasts ⟨2, ![1, k]⟩)
    (v : (⟨1, ![k]⟩ : Shape).Idx → EReal) : shapeCast ⟨2, ![1, k]⟩ v h = asRow v := by
  funext i
  obtain ⟨u, j, rfl⟩ : ∃ (u : Fin 1) (j : Fin k), i = ix2 u j := ⟨i 0, i 1, eq_ix2 i⟩
  exact Cert.LibBiasRow.vec_as_row_apply h v u j

/-- Adding a vector placed as a row and spread over the rows adds it as a bias row. -/
theorem addf_hostBias_eq {n k : ℕ} (h1 : (⟨1, ![k]⟩ : Shape).BroadcastsInDim ⟨2, ![1, k]⟩ ![1])
    (h2 : (⟨2, ![1, k]⟩ : Shape).BroadcastsInDim ⟨2, ![n, k]⟩ ![0, 1])
    (a : FVec Ideal ⟨2, ![n, k]⟩ .f32) (v : FVec Ideal ⟨1, ![k]⟩ .f32) :
    addf a (broadcastInDim ⟨2, ![n, k]⟩ ![0, 1] h2 (broadcastInDim ⟨2, ![1, k]⟩ ![1] h1 v)) = addRow a (asRow v) := by
  funext i
  obtain ⟨p, j, rfl⟩ : ∃ (p : Fin n) (j : Fin k), i = ix2 p j := ⟨i 0, i 1, eq_ix2 i⟩
  show a (ix2 p j) + broadcastInDim ⟨2, ![n, k]⟩ ![0, 1] h2 (broadcastInDim ⟨2, ![1, k]⟩ ![1] h1 v) (ix2 p j)
    = a (ix2 p j) + v (ix1 j)
  rw [Cert.LibRowBroadcast.row_mat_apply h2 _ p j, Cert.LibRowBroadcast.vec_row_apply h1 v 0 j]

/-! ## A contraction over two terms -/

/-- With two columns on the left the product has two terms: a(p, 0)·w(0, o) + a(p, 1)·w(1, o). -/
theorem mm_two {n d : ℕ} (a : Mat n 2) (w : Mat 2 d) (p : Fin n) (o : Fin d) :
    mm a w (ix2 p o) = a (ix2 p (0 : Fin 2)) * w (ix2 (0 : Fin 2) o) + a (ix2 p (1 : Fin 2)) * w (ix2 (1 : Fin 2) o) := by
  show ∑ j : Fin 2, a (ix2 p j) * w (ix2 j o) = _
  rw [Fin.sum_univ_two]

end Cert.Mlp

end
-- ==== Proof.RefValue.lean ====
/-
  What the reference computes, as the network.

  The reference is four lines of jnp: three times "multiply by a weight matrix, add the bias vector to every row, floor
  at zero", then a last multiply-and-add with no floor.  On the extended reals each line is a stage of the network: the
  host's contraction of rows against columns is the matrix product, a bias vector placed as a row and spread over the
  rows is the bias row added, and the maximum against a spread zero is the floor.  So the reference's result is the
  network on the argument arrays, each bias read as a row.
-/
import proofs.«164908_j53420803228395_2_alg».proof.Proof.Gen.ReferenceIdeal.Run
import proofs.«164908_j53420803228395_2_alg».proof.Proof.Network

noncomputable section

namespace Cert.ReferenceIdeal.RefValue

open Cert.ReferenceIdeal Cert.ReferenceIdeal.Gen Idealize.ShloMosaic Idealize.ShloMosaic.TcCoe
open Cert.LibRowStages Cert.Mlp

/-- The reference's result term is the network on its arguments. -/
theorem result_eq (x : FVec Ideal S262144x2 .f32) (w0 : FVec Ideal S2x1024 .f32) (b0 : FVec Ideal S1024 .f32)
    (w1 : FVec Ideal S1024x512 .f32) (b1 : FVec Ideal S512 .f32) (w2 : FVec Ideal S512x256 .f32)
    (b2 : FVec Ideal S256 .f32) (w3 : FVec Ideal S256x3 .f32) (b3 : FVec Ideal S3 .f32) :
    addf (Host.dotGeneral dot_S262144x256_S256x3_S262144x3_1_0_0_1_n_n none (maximumf (addf (Host.dotGeneral dot_S262144x512_S512x256_S262144x256_1_0_0_1_n_n none (maximumf (addf (Host.dotGeneral dot_S262144x1024_S1024x512_S262144x512_1_0_0_1_n_n none (maximumf (addf (Host.dotGeneral dot_S262144x2_S2x1024_S262144x1024_1_0_0_1_n_n none x w0) (broadcastInDim S262144x1024 ![0, 1] bcast_S1x1024_S262144x1024_0_1 (broadcastInDim S1x1024 ![1] bcast_S1024_S1x1024_1 b0))) (broadcastInDim S262144x1024 ![] bcast_S_S262144x1024 (constant S_ .f32 0x00000000#32))) w1) (broadcastInDim S262144x512 ![0, 1] bcast_S1x512_S262144x512_0_1 (broadcastInDim S1x512 ![1] bcast_S512_S1x512_1 b1))) (broadcastInDim S262144x512 ![] bcast_S_S262144x512 (constant S_ .f32 0x00000000#32))) w2) (broadcastInDim S262144x256 ![0, 1] bcast_S1x256_S262144x256_0_1 (broadcastInDim S1x256 ![1] bcast_S256_S1x256_1 b2))) (broadcastInDim S262144x256 ![] bcast_S_S262144x256 (constant S_ .f32 0x00000000#32))) w3) (broadcastInDim S262144x3 ![0, 1] bcast_S1x3_S262144x3_0_1 (broadcastInDim S1x3 ![1] bcast_S3_S1x3_1 b3))
      = net x w0 (asRow b0) w1 (asRow b1) w2 (asRow b2) w3 (asRow b3) := by
  rw [dotGeneral_eq_mm dot_S262144x2_S2x1024_S262144x1024_1_0_0_1_n_n rfl rfl rfl rfl rfl rfl,
    addf_hostBias_eq, maximumf_hostZero_eq_relu,
    dotGeneral_eq_mm dot_S262144x1024_S1024x512_S262144x512_1_0_0_1_n_n rfl rfl rfl rfl rfl rfl,
    addf_hostBias_eq, maximumf_hostZero_eq_relu,
    dotGeneral_eq_mm dot_S262144x512_S512x256_S262144x256_1_0_0_1_n_n rfl rfl rfl rfl rfl rfl,
    addf_hostBias_eq, maximumf_hostZero_eq_relu,
    dotGeneral_eq_mm dot_S262144x256_S256x3_S262144x3_1_0_0_1_n_n rfl rfl rfl rfl rfl rfl,
    addf_hostBias_eq]
  rfl

end Cert.ReferenceIdeal.RefValue

end
-- ==== Proof.LibKeepdims.lean ====
/-
  Two layout operations of a "keep the reduced axis" column, read at an index: a vector [a] cast to a column [a, 1],
  and a column [a, 1] broadcast along a second axis to [a, b]. General in the extents and in the element type.
-/
import Idealize.ShloMosaic.Lib.Pipeline.Value
import Idealize.ShloMosaic.Lib.ValueIdx

noncomputable section

namespace Cert.LibKeepdims

open Idealize.ShloMosaic Idealize.ShloMosaic.ValueIdx

variable {α : Type}

/-- An `[a]` array cast to the column `[a, 1]` reads, at `(i, 0)`, the operand at `i`: both sit at row-major
    position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : Fin 1).val = if (1 : ℕ) = 1 then 0 else c.val
    rw [if_pos rfl]; rfl

end Cert.LibKeepdims

end
-- ==== Proof.KernelBlock.lean ====
/-
  What one call of the kernel body leaves in its output block, as the network.

  The body loads a block of 2048 input rows and the eight parameter blocks whole, computes, and stores one whole
  [2048, 128] block.  Its first layer is written out on the vector unit as x(p, 0)·w(0, j) + x(p, 1)·w(1, j): the two
  columns of the input block cut out and spread along the rows, the two rows of the weight matrix cut out and spread
  down the columns.  That is the matrix product of the input block with the weight matrix, a contraction over two terms.
  The other three layers are products on the matrix unit into a zero accumulator; every bias is a one-row block spread
  over the rows and added; every floor is the maximum against a splat of the zero word; the changes to a narrower float
  format change nothing on the extended reals.  So the stored block is the network on the nine loaded blocks.
-/
import proofs.«164908_j53420803228395_2_alg».proof.Proof.Gen.KernelIdeal.Frame
import proofs.«164908_j53420803228395_2_alg».proof.Proof.Network
import proofs.«164908_j53420803228395_2_alg».proof.Proof.LibKeepdims
import Idealize.ShloMosaic.Lib.Pipeline.Value

noncomputable section

open scoped BigOperators

namespace Cert.KernelIdeal.BlockValue

open Cert.KernelIdeal Cert.KernelIdeal.Gen Idealize.ShloMosaic Idealize.ShloMosaic.TcCoe Idealize.ShloMosaic.ValueIdx
open Cert.LibRowStages Cert.Mlp

/-- The zero offsets of a whole-block access. -/
theorem hz : (![0, 0] : Fin 2 → Nat) = fun _ => 0 := funext fun a => by fin_cases a <;> rfl

/-- The first layer as the vector unit writes it is the product of the input block with the weight matrix. -/
theorem layer0_eq (x0 : Vec Ideal S2048x2 .f32) (x1 : Vec Ideal S2x1024 .f32) :
    (addf (mulf (broadcastTo S2048x1024 (View.ld x0 r0_0) broadcasts_S2048x1_S2048x1024)
               (broadcastTo S2048x1024 (View.ld x1 r0_2) broadcasts_S1x1024_S2048x1024))
         (mulf (broadcastTo S2048x1024 (View.ld x0 r0_1) broadcasts_S2048x1_S2048x1024)
               (broadcastTo S2048x1024 (View.ld x1 r0_3) broadcasts_S1x1024_S2048x1024)) : FVec Ideal S2048x1024 .f32)
      = mm x0 x1 := by
  funext i
  obtain ⟨p, j, rfl⟩ : ∃ (p : Fin 2048) (j : Fin 1024), i = ix2 p j := ⟨i 0, i 1, eq_ix2 i⟩
  rw [mm_two]
  show broadcastTo S2048x1024 (View.ld x0 r0_0) broadcasts_S2048x1_S2048x1024 (ix2 p j)
        * broadcastTo S2048x1024 (View.ld x1 r0_2) broadcasts_S1x1024_S2048x1024 (ix2 p j)
      + broadcastTo S2048x1024 (View.ld x0 r0_1) broadcasts_S2048x1_S2048x1024 (ix2 p j)
        * broadcastTo S2048x1024 (View.ld x1 r0_3) broadcasts_S1x1024_S2048x1024 (ix2 p j) = _
  rw [Cert.LibKeepdims.broadcastTo_a1_ab_apply, Cert.LibKeepdims.broadcastTo_a1_ab_apply,
    Cert.LibBiasRow.row_spread_apply, Cert.LibBiasRow.row_spread_apply]
  have e0 : r0_0.idx (ix2 p (0 : Fin 1)) = ix2 p (0 : Fin 2) := funext fun a => Fin.ext (by
    match a with
    | ⟨0, _⟩ => show 0 + 1 * p.val = p.val; omega
    | ⟨1, _⟩ => rfl)
  have e1 : r0_1.idx (ix2 p (0 : Fin 1)) = ix2 p (1 : Fin 2) := funext fun a => Fin.ext (by
    match a with
    | ⟨0, _⟩ => show 0 + 1 * p.val = p.val; omega
    | ⟨1, _⟩ => rfl)
  have e2 : r0_2.idx (ix2 (0 : Fin 1) j) = ix2 (0 : Fin 2) j := funext fun a => Fin.ext (by
    match a with
    | ⟨0, _⟩ => rfl
    | ⟨1, _⟩ => show 0 + 1 * j.val = j.val; omega)
  have e3 : r0_3.idx (ix2 (0 : Fin 1) j) = ix2 (1 : Fin 2) j := funext fun a => Fin.ext (by
    match a with
    | ⟨0, _⟩ => rfl
    | ⟨1, _⟩ => show 0 + 1 * j.val = j.val; omega)
  show x0 (r0_0.idx (ix2 p (0 : Fin 1))) * x1 (r0_2.idx (ix2 (0 : Fin 1) j))
      + x0 (r0_1.idx (ix2 p (0 : Fin 1))) * x1 (r0_3.idx (ix2 (0 : Fin 1) j)) = _
  rw [e0, e1, e2, e3]

/-- The block the body stores is the network on the blocks it loads. -/
theorem block_eq (x0 : Vec Ideal S2048x2 .f32) (x1 : Vec Ideal S2x1024 .f32) (x2 : Vec Ideal S1x1024 .f32)
    (x3 : Vec Ideal S1024x512 .bf16) (x4 : Vec Ideal S1x512 .f32) (x5 : Vec Ideal S512x256 .bf16)
    (x6 : Vec Ideal S1x256 .f32) (x7 : Vec Ideal S256x128 .bf16) (x8 : Vec Ideal S1x128 .f32) :
    out0_9 (F := Ideal) x0 x1 x2 x3 x4 x5 x6 x7 x8 = net x0 x1 x2 x3 x4 x5 x6 x7 x8 := by
  unfold out0_9
  rw [View.canon_unit_zero hz]
  simp only [View.ld_unit_zero (S := S1x1024) hz, View.ld_unit_zero (S := S1024x512) hz,
    View.ld_unit_zero (S := S1x512) hz, View.ld_unit_zero (S := S512x256) hz, View.ld_unit_zero (S := S1x256) hz,
    View.ld_unit_zero (S := S256x128) hz, View.ld_unit_zero (S := S1x128) hz]
  unfold k0_pay1 k0_pay2 k0_pay3
  dsimp only
  simp only [shapeCast_self, truncf_eq]
  rw [layer0_eq, addf_spread_eq_addRow, maximumf_zero_eq_relu,
    matmul_eq_mm dot_S2048x1024_S1024x512_S2048x512_1_0_0_1_n_n rfl rfl rfl rfl rfl rfl,
    addf_spread_eq_addRow, maximumf_zero_eq_relu,
    matmul_eq_mm dot_S2048x512_S512x256_S2048x256_1_0_0_1_n_n rfl rfl rfl rfl rfl rfl,
    addf_spread_eq_addRow, maximumf_zero_eq_relu,
    matmul_eq_mm dot_S2048x256_S256x128_S2048x128_1_0_0_1_n_n rfl rfl rfl rfl rfl rfl,
    addf_spread_eq_addRow]
  rfl

end Cert.KernelIdeal.BlockValue

end
-- ==== Proof.KernelArray.lean ====
/-
  The array the kernel launch leaves: the network on all the rows.

  The launch runs the body at 128 points.  Point t stages rows 2048·t … 2048·t + 2047 of the input, the eight parameter
  arrays whole, and writes back rows 2048·t … 2048·t + 2047 of the [262144, 128] output.  Because the network works one
  row at a time, what point t writes back is those rows of the network on the whole input; the 128 row blocks tile the
  output, so after the launch the output array is the network on the whole input with the widened head.
-/
import proofs.«164908_j53420803228395_2_alg».proof.Proof.Gen.KernelIdeal.Frame
import proofs.«164908_j53420803228395_2_alg».proof.Proof.KernelBlock
import proofs.«164908_j53420803228395_2_alg».proof.Proof.Network
import Idealize.ShloMosaic.Lib.Pipeline.Value

noncomputable section

namespace Cert.KernelIdeal.ArrayValue

open Cert.KernelIdeal Cert.KernelIdeal.Gen Idealize.ShloMosaic Idealize.ShloMosaic.TcCoe Idealize.SL.Sem
open Idealize.ShloMosaic.ValueIdx
open Cert.LibRowStages Cert.Mlp Cert.KernelIdeal.BlockValue

variable (m : (ℓ : Loc nD τ sig) → Buf (Elt Ideal) ℓ)

/-- The array the launch leaves in the output window: the network on the staged arrays as the launch finds them. -/
def launched (c : Dev nD) : Mat 262144 128 :=
  net (V m c main_arg0 : S262144x2.Idx → EReal) (V m c main_arg1 : S2x1024.Idx → EReal)
    (V m c main_v5 : S1x1024.Idx → EReal) (V m c main_v0 : S1024x512.Idx → EReal)
    (V m c main_v6 : S1x512.Idx → EReal) (V m c main_v1 : S512x256.Idx → EReal)
    (V m c main_v7 : S1x256.Idx → EReal) (V m c main_v3 : S256x128.Idx → EReal)
    (V m c main_v8 : S1x128.Idx → EReal)

/-- The block index maps, decided over the grid: the input and the output move one row block per point, every
    parameter window stays at block (0, 0). -/
theorem idx_facts : ∀ t : Fin cfg0.N,
    win0_0.index t (0 : Fin 2) = t.val ∧ win0_0.index t (1 : Fin 2) = 0
    ∧ win0_9.index t (0 : Fin 2) = t.val ∧ win0_9.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-! ## The parameter windows' blocks are the whole arrays -/

theorem iblk1 (c : Dev nD) (t : Fin cfg0.N) : (iblk m c 1 t : S2x1024.Idx → EReal) = V m c main_arg1 := by
  funext y
  show V m c main_arg1 (((cfg0.win 1).blk t).view.emb y) = V m c main_arg1 y
  obtain ⟨f00, f01, f90, f91, f10, f11, f20, f21, f30, f31, f40, f41, f50, f51, f60, f61, f70, f71, f80, f81⟩ := idx_facts t
  refine congrArg _ (funext fun a => Fin.ext ?_)
  match a with
  | ⟨0, _⟩ => show win0_1.index t (0 : Fin 2) * 2 + 1 * (y 0).val = (y 0).val; omega
  | ⟨1, _⟩ => show win0_1.index t (1 : Fin 2) * 1024 + 1 * (y 1).val = (y 1).val; omega

theorem iblk2 (c : Dev nD) (t : Fin cfg0.N) : (iblk m c 2 t : S1x1024.Idx → EReal) = V m c main_v5 := by
  funext y
  show V m c main_v5 (((cfg0.win 2).blk t).view.emb y) = V m c main_v5 y
  obtain ⟨f00, f01, f90, f91, f10, f11, f20, f21, f30, f31, f40, f41, f50, f51, f60, f61, f70, f71, f80, f81⟩ := idx_facts t
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 1024 + 1 * (y 1).val = (y 1).val; omega

theorem iblk3 (c : Dev nD) (t : Fin cfg0.N) : (iblk m c 3 t : S1024x512.Idx → EReal) = V m c main_v0 := by
  funext y
  show V m c main_v0 (((cfg0.win 3).blk t).view.emb y) = V m c main_v0 y
  obtain ⟨f00, f01, f90, f91, f10, f11, f20, f21, f30, f31, f40, f41, f50, f51, f60, f61, f70, f71, f80, f81⟩ := idx_facts t
  refine congrArg _ (funext fun a => Fin.ext ?_)
  match a with
  | ⟨0, _⟩ => show win0_3.index t (0 : Fin 2) * 1024 + 1 * (y 0).val = (y 0).val; omega
  | ⟨1, _⟩ => show win0_3.index t (1 : Fin 2) * 512 + 1 * (y 1).val = (y 1).val; omega

theorem iblk4 (c : Dev nD) (t : Fin cfg0.N) : (iblk m c 4 t : S1x512.Idx → EReal) = V m c main_v6 := by
  funext y
  show V m c main_v6 (((cfg0.win 4).blk t).view.emb y) = V m c main_v6 y
  obtain ⟨f00, f01, f90, f91, f10, f11, f20, f21, f30, f31, f40, f41, f50, f51, f60, f61, f70, f71, f80, f81⟩ := idx_facts t
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 512 + 1 * (y 1).val = (y 1).val; omega

theorem iblk5 (c : Dev nD) (t : Fin cfg0.N) : (iblk m c 5 t : S512x256.Idx → EReal) = V m c main_v1 := by
  funext y
  show V m c main_v1 (((cfg0.win 5).blk t).view.emb y) = V m c main_v1 y
  obtain ⟨f00, f01, f90, f91, f10, f11, f20, f21, f30, f31, f40, f41, f50, f51, f60, f61, f70, f71, f80, f81⟩ := idx_facts t
  refine congrArg _ (funext fun a => Fin.ext ?_)
  match a with
  | ⟨0, _⟩ => show win0_5.index t (0 : Fin 2) * 512 + 1 * (y 0).val = (y 0).val; omega
  | ⟨1, _⟩ => show win0_5.index t (1 : Fin 2) * 256 + 1 * (y 1).val = (y 1).val; omega

theorem iblk6 (c : Dev nD) (t : Fin cfg0.N) : (iblk m c 6 t : S1x256.Idx → EReal) = V m c main_v7 := by
  funext y
  show V m c main_v7 (((cfg0.win 6).blk t).view.emb y) = V m c main_v7 y
  obtain ⟨f00, f01, f90, f91, f10, f11, f20, f21, f30, f31, f40, f41, f50, f51, f60, f61, f70, f71, f80, f81⟩ := idx_facts t
  refine congrArg _ (funext fun a => Fin.ext ?_)
  match a with
  | ⟨0, _⟩ => show win0_6.index t (0 : Fin 2) * 1 + 1 * (y 0).val = (y 0).val; omega
  | ⟨1, _⟩ => show win0_6.index t (1 : Fin 2) * 256 + 1 * (y 1).val = (y 1).val; omega

theorem iblk7 (c : Dev nD) (t : Fin cfg0.N) : (iblk m c 7 t : S256x128.Idx → EReal) = V m c main_v3 := by
  funext y
  show V m c main_v3 (((cfg0.win 7).blk t).view.emb y) = V m c main_v3 y
  obtain ⟨f00, f01, f90, f91, f10, f11, f20, f21, f30, f31, f40, f41, f50, f51, f60, f61, f70, f71, f80, f81⟩ := idx_facts t
  refine congrArg _ (funext fun a => Fin.ext ?_)
  match a with
  | ⟨0, _⟩ => show win0_7.index t (0 : Fin 2) * 256 + 1 * (y 0).val = (y 0).val; omega
  | ⟨1, _⟩ => show win0_7.index t (1 : Fin 2) * 128 + 1 * (y 1).val = (y 1).val; omega

theorem iblk8 (c : Dev nD) (t : Fin cfg0.N) : (iblk m c 8 t : S1x128.Idx → EReal) = V m c main_v8 := by
  funext y
  show V m c main_v8 (((cfg0.win 8).blk t).view.emb y) = V m c main_v8 y
  obtain ⟨f00, f01, f90, f91, f10, f11, f20, f21, f30, f31, f40, f41, f50, f51, f60, f61, f70, f71, f80, f81⟩ := idx_facts t
  refine congrArg _ (funext fun a => Fin.ext ?_)
  match a with
  | ⟨0, _⟩ => show win0_8.index t (0 : Fin 2) * 1 + 1 * (y 0).val = (y 0).val; omega
  | ⟨1, _⟩ => show win0_8.index t (1 : Fin 2) * 128 + 1 * (y 1).val = (y 1).val; omega

/-! ## What a point writes back -/

/-- Point t writes back block t of the launched array: the body's block is the network on the point's input rows
    (`block_eq`), and those are rows 2048·t … of the whole input. -/
theorem flushed_eq (c : Dev nD) (t : Fin cfg0.N) :
    (dats m 0 c).flushed 9 t = ((cfg0.win 9).blk t).view.read (Elt Ideal) (launched m c) := by
  show (cfg0.win 9).cut (grid0.coords t) ((dats m 0 c).after 9 t) = _
  rw [after0_9]
  funext y
  show out0_9 (iblk m c 0 t) (iblk m c 1 t) (iblk m c 2 t) (iblk m c 3 t) (iblk m c 4 t) (iblk m c 5 t) (iblk m c 6 t)
      (iblk m c 7 t) (iblk m c 8 t) y = launched m c (((cfg0.win 9).blk t).view.emb y)
  refine (congrFun (block_eq _ _ _ _ _ _ _ _ _) y).trans ?_
  rw [iblk1, iblk2, iblk3, iblk4, iblk5, iblk6, iblk7, iblk8]
  unfold launched
  obtain ⟨f00, f01, f90, f91, f10, f11, f20, f21, f30, f31, f40, f41, f50, f51, f60, f61, f70, f71, f80, f81⟩ := idx_facts t
  refine net_at y _ (fun j => ?_) ?_ _ _ _ _ _ _ _ _
  · show V m c main_arg0 (((cfg0.win 0).blk t).view.emb (ix2 (y 0) j))
      = V m c main_arg0 (ix2 ((((cfg0.win 9).blk t).view.emb y) 0) j)
    refine congrArg _ (funext fun a => Fin.ext ?_)
    match a with
    | ⟨0, _⟩ =>
      show win0_0.index t (0 : Fin 2) * 2048 + 1 * (y 0).val = win0_9.index t (0 : Fin 2) * 2048 + 1 * (y 0).val
      omega
    | ⟨1, _⟩ => show win0_0.index t (1 : Fin 2) * 2 + 1 * j.val = j.val; omega
  · apply Fin.ext
    show win0_9.index t (1 : Fin 2) * 128 + 1 * (y 1).val = (y 1).val
    omega

/-! ## The row blocks tile the output -/

/-- An index of the output array is in point t's block iff each coordinate is in the block's range on its axis. -/
theorem mem_blk (t : Fin cfg0.N) (i : S262144x128.Idx) :
    i ∈ ((cfg0.win 9).blk t).view.set ↔ ∀ a : Fin 2, win0_9.index t a * S2048x128.size a ≤ (i a).val
      ∧ (i a).val < win0_9.index t a * S2048x128.size a + S2048x128.size a := by
  show i ∈ ((View.whole main_v9).slice (win0_9.rect t)).set ↔ _
  rw [View.set_slice_whole, Rect.mem_set_unit]
  exact Iff.rfl

/-- Row r of the output is in the block of point r / 2048. -/
theorem cover (i : S262144x128.Idx) :
    ∃ t : Fin cfg0.N, (cfg0.win 9).flush t = true ∧ i ∈ ((cfg0.win 9).blk t).view.set := by
  have h0 : (i 0).val < 262144 := (i 0).isLt
  have h1 : (i 1).val < 128 := (i 1).isLt
  have hN : cfg0.N = 128 := N_0
  have ht : (i 0).val / 2048 < cfg0.N := by omega
  obtain ⟨f00, f01, f90, f91, f10, f11, f20, f21, f30, f31, f40, f41, f50, f51, f60, f61, f70, f71, f80, f81⟩ := idx_facts ⟨(i 0).val / 2048, ht⟩
  refine ⟨⟨(i 0).val / 2048, ht⟩, flush0_9 _, ?_⟩
  rw [mem_blk]
  intro a
  match a with
  | ⟨0, _⟩ =>
    show win0_9.index ⟨(i 0).val / 2048, ht⟩ (0 : Fin 2) * 2048 ≤ (i 0).val
      ∧ (i 0).val < win0_9.index ⟨(i 0).val / 2048, ht⟩ (0 : Fin 2) * 2048 + 2048
    have e : win0_9.index ⟨(i 0).val / 2048, ht⟩ (0 : Fin 2) = (i 0).val / 2048 := f90
    omega
  | ⟨1, _⟩ =>
    show win0_9.index ⟨(i 0).val / 2048, ht⟩ (1 : Fin 2) * 128 ≤ (i 1).val
      ∧ (i 1).val < win0_9.index ⟨(i 0).val / 2048, ht⟩ (1 : Fin 2) * 128 + 128
    omega

/-- After the launch the output window's array is the launched array. -/
theorem final (c : Dev nD) : (dats m 0 c).arrAt 9 cfg0.N = launched m c :=
  (dats m 0 c).arrAt_eq_of_cover 9 (launched m c) (fun t _ => flushed_eq m c t) cover

end Cert.KernelIdeal.ArrayValue

end
-- ==== Proof.KernelHost.lean ====
/-
  What the host lines before the kernel launch leave in the arrays the kernel's windows stage.

  Before the launch the host narrows the float format of the two middle weight matrices (no change on the extended
  reals), widens the last weight matrix from 3 to 128 columns and the last bias from 3 to 128 entries by padding on the
  high side, narrows the widened matrix's format, and reshapes each bias vector to a one-row matrix.  Read at an index:
  the narrowed matrices are the argument matrices; a reshaped bias is the bias vector as a row; and the widened matrix
  and bias, in columns 0, 1 and 2, are the argument matrix and bias (what the padding holds is never asked).
-/
import proofs.«164908_j53420803228395_2_alg».proof.Proof.Gen.KernelIdeal.Frame
import proofs.«164908_j53420803228395_2_alg».proof.Proof.LibBiasRow
import Idealize.ShloMosaic.Lib.StableHlo.Run
import Idealize.ShloMosaic.Lib.KernelVsHost
import Idealize.ShloMosaic.Lib.ValueIdx
import Idealize.ShloMosaic.PureOps.Ideal

noncomputable section

namespace Cert.KernelIdeal.HostValue

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-! ## The staged arrays as the launch finds them -/

/-- The second weight matrix, its format narrowed: the argument matrix. -/
theorem V_main_v0 (c : Dev nD) : (V m c main_v0 : S1024x512.Idx → EReal) = m ((c : Thread nD τ).loc main_arg3) := by
  dsimp only [V, V0]
  simp only [hostOps0, hostOps0_1, hostOps0_2, hostOps0_3, hostOps0_4, List.flatten_cons, List.flatten_nil,
    List.append_nil, List.cons_append, List.nil_append]
  after_results
  rfl

/-- The third weight matrix, its format narrowed: the argument matrix. -/
theorem V_main_v1 (c : Dev nD) : (V m c main_v1 : S512x256.Idx → EReal) = m ((c : Thread nD τ).loc main_arg5) := by
  dsimp only [V, V0]
  simp only [hostOps0, hostOps0_1, hostOps0_2, hostOps0_3, hostOps0_4, List.flatten_cons, List.flatten_nil,
    List.append_nil, List.cons_append, List.nil_append]
  after_results
  rfl

/-- The last weight matrix widened to 128 columns (its format then narrowed). -/
theorem V_main_v3 (c : Dev nD) : (V m c main_v3 : S256x128.Idx → EReal)
    = pad S256x128 ![0, 0] ![0, 125] ![0, 0] (m ((c : Thread nD τ).loc main_arg7))
        (sitofp (F := Ideal) .f32 (constantI S_ 32 0#32)) pads_S256x3_S256x128_000_01250 h_S_ := by
  dsimp only [V, V0]
  simp only [hostOps0, hostOps0_1, hostOps0_2, hostOps0_3, hostOps0_4, List.flatten_cons, List.flatten_nil,
    List.append_nil, List.cons_append, List.nil_append]
  after_results
  rfl

/-- The first bias as a one-row matrix. -/
theorem V_main_v5 (c : Dev nD) : (V m c main_v5 : S1x1024.Idx → EReal)
    = shapeCast S1x1024 (m ((c : Thread nD τ).loc main_arg2)) shapeCasts_S1024_S1x1024 := by
  dsimp only [V, V0]
  simp only [hostOps0, hostOps0_1, hostOps0_2, hostOps0_3, hostOps0_4, List.flatten_cons, List.flatten_nil,
    List.append_nil, List.cons_append, List.nil_append]
  after_results
  rfl

/-- The second bias as a one-row matrix. -/
theorem V_main_v6 (c : Dev nD) : (V m c main_v6 : S1x512.Idx → EReal)
    = shapeCast S1x512 (m ((c : Thread nD τ).loc main_arg4)) shapeCasts_S512_S1x512 := by
  dsimp only [V, V0]
  simp only [hostOps0, hostOps0_1, hostOps0_2, hostOps0_3, hostOps0_4, List.flatten_cons, List.flatten_nil,
    List.append_nil, List.cons_append, List.nil_append]
  after_results
  rfl

/-- The third bias as a one-row matrix. -/
theorem V_main_v7 (c : Dev nD) : (V m c main_v7 : S1x256.Idx → EReal)
    = shapeCast S1x256 (m ((c : Thread nD τ).loc main_arg6)) shapeCasts_S256_S1x256 := by
  dsimp only [V, V0]
  simp only [hostOps0, hostOps0_1, hostOps0_2, hostOps0_3, hostOps0_4, List.flatten_cons, List.flatten_nil,
    List.append_nil, List.cons_append, List.nil_append]
  after_results
  rfl

/-- The last bias widened to 128 entries, as a one-row matrix. -/
theorem V_main_v8 (c : Dev nD) : (V m c main_v8 : S1x128.Idx → EReal)
    = shapeCast S1x128 (pad S128 ![0] ![125] ![0] (m ((c : Thread nD τ).loc main_arg8))
        (sitofp (F := Ideal) .f32 (constantI S_ 32 0#32)) pads_S3_S128_01250 h_S_) shapeCasts_S128_S1x128 := by
  dsimp only [V, V0]
  simp only [hostOps0, hostOps0_1, hostOps0_2, hostOps0_3, hostOps0_4, List.flatten_cons, List.flatten_nil,
    List.append_nil, List.cons_append, List.nil_append]
  after_results
  rfl

/-! ## The widened head in the columns it shares with the argument -/

/-- Column o < 3 of the weight matrix widened to 128 columns is column o of the matrix. -/
theorem w3pad_apply (w3 : S256x3.Idx → EReal) (v : S_.Idx → EReal) (k : Fin 256) (o : Fin 3) :
    pad S256x128 ![0, 0] ![0, 125] ![0, 0] w3 v pads_S256x3_S256x128_000_01250 h_S_
      (ix2 k (⟨o.val, by have := o.isLt; omega⟩ : Fin 128)) = w3 (ix2 k o) :=
  pad_apply_of_inside ![0, 0] ![0, 125] ![0, 0] w3 v pads_S256x3_S256x128_000_01250 h_S_ _ (ix2 k o) (fun a => by
    match a with
    | ⟨0, _⟩ => show k.val = 0 + k.val * (0 + 1); omega
    | ⟨1, _⟩ => show o.val = 0 + o.val * (0 + 1); omega)

/-- Entry o < 3 of the bias widened to 128 entries and laid as a row is entry o of the bias. -/
theorem b3pad_apply (b3 : S3.Idx → EReal) (v : S_.Idx → EReal) (u : Fin 1) (o : Fin 3) :
    shapeCast S1x128 (pad S128 ![0] ![125] ![0] b3 v pads_S3_S128_01250 h_S_) shapeCasts_S128_S1x128
      (ix2 u (⟨o.val, by have := o.isLt; omega⟩ : Fin 128)) = b3 (ix1 o) := by
  have ho : o.val < 128 := by have := o.isLt; omega
  rw [Cert.LibBiasRow.vec_as_row_apply]
  exact pad_apply_of_inside ![0] ![125] ![0] b3 v pads_S3_S128_01250 h_S_ (ix1 (⟨o.val, ho⟩ : Fin 128)) (ix1 o) (fun a => by
    match a with
    | ⟨0, _⟩ => show o.val = 0 + o.val * (0 + 1); omega)

end Cert.KernelIdeal.HostValue

end
-- ==== Proof.KernelRun.lean ====
/-
  The kernel program's result, as the network on its arguments.

  After the launch the host cuts the [262144, 128] output array back to its first 3 columns.  The launched array is the
  network on the whole input with the head widened to 128 columns, the widened head agreeing with the argument head in
  columns 0, 1 and 2; a column of an affine layer depends on that column of its weights and bias only, so the cut is the
  network with the argument head: the same function of the nine arguments the reference computes.
-/
import proofs.«164908_j53420803228395_2_alg».proof.Proof.Gen.KernelIdeal.Frame
import proofs.«164908_j53420803228395_2_alg».proof.Proof.KernelArray
import proofs.«164908_j53420803228395_2_alg».proof.Proof.KernelHost
import proofs.«164908_j53420803228395_2_alg».proof.Proof.Network
import Idealize.ShloMosaic.Lib.StableHlo.Run
import Idealize.ShloMosaic.Lib.Pipeline.Value

noncomputable section

namespace Cert.KernelIdeal.RunValue

open Cert.KernelIdeal Cert.KernelIdeal.Gen Idealize.ShloMosaic Idealize.ShloMosaic.TcCoe Idealize.SL.Sem
open Idealize.ShloMosaic.StableHlo Idealize.ShloMosaic.ValueIdx
open Cert.LibRowStages Cert.Mlp Cert.KernelIdeal.ArrayValue Cert.KernelIdeal.HostValue

variable (m : (ℓ : Loc nD τ sig) → Buf (Elt Ideal) ℓ) (ρ : Dev nD → PrngReg)

/-- What the host line after the launch leaves in the result buffer: the first three columns of the launched array,
    which are the network on the arguments. -/
theorem tail_eq (c : Dev nD) :
    (Pipeline.afterTail₀ cfgs (dats m) 0 (V0 m) [hostOps1] c main_v10 : S262144x3.Idx → EReal)
      = net (m ((c : Thread nD τ).loc main_arg0) : S262144x2.Idx → EReal) (m ((c : Thread nD τ).loc main_arg1) : S2x1024.Idx → EReal)
          (asRow (m ((c : Thread nD τ).loc main_arg2))) (m ((c : Thread nD τ).loc main_arg3) : S1024x512.Idx → EReal)
          (asRow (m ((c : Thread nD τ).loc main_arg4))) (m ((c : Thread nD τ).loc main_arg5) : S512x256.Idx → EReal)
          (asRow (m ((c : Thread nD τ).loc main_arg6))) (m ((c : Thread nD τ).loc main_arg7) : S256x3.Idx → EReal)
          (asRow (m ((c : Thread nD τ).loc main_arg8))) := by
  unfold Pipeline.afterTail₀
  show StableHlo.after hostOps1 _ (Proc.devRef .tc main_v10) = _
  after_results
  have hw : Pipeline.withArrays (cfgs 0).spec c (V0 m c) (fun w => (dats m 0 c).arrAt w (cfgs 0).N)
      (Proc.devRef .tc main_v9) = launched m c :=
    (Pipeline.withArrays_arr spec0 launch0.win.arr_inj c _ _ 9).trans (final m c)
  rw [hw]
  unfold launched
  rw [V_main_arg0 m c, V_main_arg1 m c, V_main_v5 m c, V_main_v0 m c, V_main_v6 m c, V_main_v1 m c, V_main_v7 m c,
    V_main_v3 m c, V_main_v8 m c, shapeCast_eq_asRow, shapeCast_eq_asRow, shapeCast_eq_asRow]
  exact net_slice (by omega) _ _ _ _ _ _ _ _ _ _ _ _ (fun j o => w3pad_apply _ _ j o) (fun o => b3pad_apply _ _ 0 o)

/-- Every weakly fair execution of the kernel program ends with the result buffer at the network on the arguments,
    the arguments unchanged. -/
theorem run : θ_run defs (onTc (τ := τ) (main (F := Ideal))) ⟨m, fun _ => 0, ρ⟩ fun r => ∀ c : Dev nD,
      r.2.mem ((c.tc : Thread nD τ).loc main_v10) = (net (m ((c.tc : Thread nD τ).loc main_arg0) : S262144x2.Idx → EReal) (m ((c.tc : Thread nD τ).loc main_arg1) : S2x1024.Idx → EReal)
          (asRow (m ((c.tc : Thread nD τ).loc main_arg2))) (m ((c.tc : Thread nD τ).loc main_arg3) : S1024x512.Idx → EReal)
          (asRow (m ((c.tc : Thread nD τ).loc main_arg4))) (m ((c.tc : Thread nD τ).loc main_arg5) : S512x256.Idx → EReal)
          (asRow (m ((c.tc : Thread nD τ).loc main_arg6))) (m ((c.tc : Thread nD τ).loc main_arg7) : S256x3.Idx → EReal)
          (asRow (m ((c.tc : Thread nD τ).loc main_arg8))) : S262144x3.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨
      ((h c).2 main_v10 (Pipeline.mem_restRefs_of main_v10 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩)
    (run_main m ρ)

end Cert.KernelIdeal.RunValue

end
-- ==== Proof.lean ====
/-
  A four-layer perceptron, 2 → 1024 → 512 → 256 → 3 with a floor at zero after each of the first three layers, on
  262144 input rows: a kernel that fuses the four layers over blocks of 2048 rows, against four lines of jnp.

  On the extended reals both programs compute one function of the nine arguments, the network of Proof/Network.lean.
  The reference is that function line by line (Proof/RefValue.lean).  The kernel differs in four ways, none of which
  changes a value: it works on 128 blocks of 2048 rows, and a row of the network's result depends on that row of the
  input only (Proof/KernelArray.lean); its first layer, a contraction over two terms, is written out as two products and
  a sum (Proof/KernelBlock.lean); it narrows the float format of the inner operands, which is the identity on the
  extended reals; and it widens the last layer from 3 to 128 columns and cuts the result back to 3, where a column of
  the last layer depends on that column of its weights and bias only (Proof/KernelHost.lean, Proof/KernelRun.lean).
  No law of arithmetic beyond reading sums and products entry by entry is used, so the finiteness of the inputs is
  never opened.  The three frames are the generated ones; the kernel's idealization rewrote nothing.
-/
import proofs.«164908_j53420803228395_2_alg».proof.Defs
import proofs.«164908_j53420803228395_2_alg».proof.Proof.Gen.Kernel
import proofs.«164908_j53420803228395_2_alg».proof.Proof.Gen.Kernel.Skeleton
import proofs.«164908_j53420803228395_2_alg».proof.Proof.Gen.Kernel.Launch
import proofs.«164908_j53420803228395_2_alg».proof.Proof.Gen.Kernel.Points
import proofs.«164908_j53420803228395_2_alg».proof.Proof.Gen.Kernel.Frame
import proofs.«164908_j53420803228395_2_alg».proof.Proof.Gen.KernelIdeal
import proofs.«164908_j53420803228395_2_alg».proof.Proof.Gen.KernelIdeal.Skeleton
import proofs.«164908_j53420803228395_2_alg».proof.Proof.Gen.KernelIdeal.Launch
import proofs.«164908_j53420803228395_2_alg».proof.Proof.Gen.KernelIdeal.Points
import proofs.«164908_j53420803228395_2_alg».proof.Proof.Gen.KernelIdeal.Frame
import proofs.«164908_j53420803228395_2_alg».proof.Proof.Gen.ReferenceIdeal
import proofs.«164908_j53420803228395_2_alg».proof.Proof.Gen.Pre_finite_inputs
import proofs.«164908_j53420803228395_2_alg».proof.Proof.Gen.ReferenceIdeal.Run
import proofs.«164908_j53420803228395_2_alg».proof.Proof.RefValue
import proofs.«164908_j53420803228395_2_alg».proof.Proof.KernelRun
import Idealize.ShloMosaic.Adequacy
import Idealize.ShloMosaic.Init

noncomputable section

namespace Cert.Proof

open Idealize.ShloMosaic Idealize.SL.Sem

/-- The word-level kernel program runs and leaves its arguments as they were. -/
theorem frame_kernel : Cert.frame_Kernel := fun m ρ _ => Cert.Kernel.Gen.frame m ρ

/-- So does the kernel program read on the extended reals. -/
theorem frame_kernelIdeal : Cert.frame_KernelIdeal := fun m ρ _ => Cert.KernelIdeal.Gen.frame m ρ

/-- And the reference: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the network on the arguments in their result buffers. -/
theorem algebraic : Cert.algebraic_KernelIdeal_ReferenceIdeal := by
  intro m ρ m' ρ' _ hagree
  refine ⟨_, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8⟩ := hagree c
  rw [e0, e1, e2, e3, e4, e5, e6, e7, e8]
  exact Cert.ReferenceIdeal.RefValue.result_eq _ _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
